-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x512 : Shape := ⟨2, ![128, 512]⟩
abbrev S512 : Shape := ⟨1, ![512]⟩
abbrev S512x128 : Shape := ⟨2, ![512, 128]⟩
abbrev S128 : Shape := ⟨1, ![128]⟩
abbrev S2x1600000 : Shape := ⟨2, ![2, 1600000]⟩
abbrev S50000 : Shape := ⟨1, ![50000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S512x128 .f32) (main_arg8 : FVec F S128 .f32) (main_v33 : IVec S_ 1) : IVec S_ 1 :=
  let main_v34 : FVec F S512x128 .f32 := Host.absf main_arg7
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128 .f32) (main_arg5 : FVec F S128x512 .f32) (main_arg6 : FVec F S512 .f32) (main_arg7 : FVec F S512x128 .f32) (main_arg8 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x512 .f32 := Host.absf main_arg5
  let main_cst_8 : FVec F S_ .f32 := constant S_ .f32 0x7F800000#32
  let main_v25 : FVec F S128x512 .f32 := broadcastInDim S128x512 ![] bcast_S_S128x512 main_cst_8
  let main_v26 : IVec S128x512 1 := cmpf .olt main_v24 main_v25
  let main_c_9 : IVec S_ 1 := constantI S_ 1 1#1
  let main_v27 : IVec S_ 1 := (fun x v => Host.reduce IntOp.andi x v reducesTo_S128x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S100000x128 .f32) (main_arg1 : FVec F S128x512 .f32) (main_arg2 : FVec F S512 .f32) (main_arg3 : FVec F S512x128 .f32) (main_arg4 : FVec F S128 .f32) (main_arg5 : FVec F S128x512 .f32) (main_arg6 : FVec F S512 .f32) (main_arg7 : FVec F S512x128 .f32) (main_arg8 : FVec F S128 .f32) (main_arg9 : IVec S2x1600000 32) (main_arg10 : IVec S50000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_arg7 main_arg8 main_v13 main_v16
-- ==== Kernel.lean ====
abbrev S100000x128 : Shape := ⟨2, ![100000, 128]⟩
abbrev S128x512 : Shape := ⟨2, ![128, 512]⟩
abbrev S512 : Shape := ⟨1, ![512]⟩
abbrev S512x128 : Shape := ⟨2, ![512, 128]⟩
abbrev S128 : Shape := ⟨1, ![128]⟩
abbrev S2x1600000 : Shape := ⟨2, ![2, 1600000]⟩
abbrev S50000 : Shape := ⟨1, ![50000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x512 : Shape := ⟨2, ![1, 512]⟩
abbrev S1x128 : Shape := ⟨2, ![1, 128]⟩
abbrev S2000x128 : Shape := ⟨2, ![2000, 128]⟩
abbrev S2000x512 : Shape := ⟨2, ![2000, 512]⟩
abbrev S50000x1 : Shape := ⟨2, ![50000, 1]⟩
abbrev S50000x128 : Shape := ⟨2, ![50000, 128]⟩

abbrev nBuf : Space → Nat
  | .hbm => 70
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S128x512, .f32⟩
  | .hbm, ⟨2, _⟩ => ⟨S512, .f32⟩
  | .hbm, ⟨3, _⟩ => ⟨S512x128, .f32⟩
  | .hbm, ⟨4, _⟩ => ⟨S128, .f32⟩
  | .hbm, ⟨5, _⟩ => ⟨S128x512, .f32⟩
  | .hbm, ⟨6, _⟩ => ⟨S512, .f32⟩
  | .hbm, ⟨7, _⟩ => ⟨S512x128, .f32⟩
  | .hbm, ⟨8, _⟩ => ⟨S128, .f32⟩
  | .hbm, ⟨9, _⟩ => ⟨S2x1600000, .i32⟩
  | .hbm, ⟨10, _⟩ => ⟨S50000, .i32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S128x512, .bf16⟩
  | .hbm, ⟨29, _⟩ => ⟨S512x128, .bf16⟩
  | .hbm, ⟨30, _⟩ => ⟨S128x512, .bf16⟩
  | .hbm, ⟨31, _⟩ => ⟨S512x128, .bf16⟩
  | .hbm, ⟨32, _⟩ => ⟨S1x512, .f32⟩
  | .hbm, ⟨33, _⟩ => ⟨S1x128, .f32⟩
  | .hbm, ⟨34, _⟩ => ⟨S100000x128, .f32⟩
  | .hbm, ⟨35, _⟩ => ⟨S_, .i32⟩
  | .hbm, ⟨36, _⟩ => ⟨S50000, .i32⟩
  | .hbm, ⟨37, _⟩ => ⟨S50000, .i1⟩
  | .hbm, ⟨38, _⟩ => ⟨S_, .i32⟩
  | .hbm, ⟨39, _⟩ => ⟨S50000, .i32⟩
  | .hbm, ⟨40, _⟩ => ⟨S50000, .i32⟩
  | .hbm, ⟨41, _⟩ => ⟨S50000, .i32⟩
  | .hbm, ⟨42, _⟩ => ⟨S50000x1, .i32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S50000, .i32⟩
  | .hbm, ⟨49, _⟩ => ⟨S50000, .i1⟩
  | .hbm, ⟨50, _⟩ => ⟨S_, .i32⟩
  | .hbm, ⟨51, _⟩ => ⟨S50000, .i32⟩
  | .hbm, ⟨52, _⟩ => ⟨S50000, .i32⟩
  | .hbm, ⟨53, _⟩ => ⟨S50000, .i32⟩
  | .hbm, ⟨54, _⟩ => ⟨S50000x1, .i32⟩
  | .hbm, ⟨55, _⟩ => ⟨S50000x128, .f32⟩
  | .hbm, ⟨56, _⟩ => ⟨S50000x128, .f32⟩
  | .hbm, ⟨57, _⟩ => ⟨S50000x128, .bf16⟩
  | .hbm, ⟨58, _⟩ => ⟨S1x512, .f32⟩
  | .hbm, ⟨59, _⟩ => ⟨S1x128, .f32⟩
  | .hbm, ⟨60, _⟩ => ⟨S50000x128, .f32⟩
  | .hbm, ⟨61, _⟩ => ⟨S_, .i32⟩
  | .hbm, ⟨62, _⟩ => ⟨S50000, .i32⟩
  | .hbm, ⟨63, _⟩ => ⟨S50000, .i1⟩
  | .hbm, ⟨64, _⟩ => ⟨S_, .i32⟩
  | .hbm, ⟨65, _⟩ => ⟨S50000, .i32⟩
  | .hbm, ⟨66, _⟩ => ⟨S50000, .i32⟩
  | .hbm, ⟨67, _⟩ => ⟨S50000, .i32⟩
  | .hbm, ⟨68, _⟩ => ⟨S50000x1, .i32⟩
  | .hbm, ⟨69, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x512, .bf16⟩
  | .local _ .vmem, ⟨5, _⟩ => ⟨S1x512, .f32⟩
  | .local _ .vmem, ⟨6, _⟩ => ⟨S512x128, .bf16⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .bf16⟩
  | .local _ .vmem, ⟨11, _⟩ => ⟨S2000x128, .bf16⟩
  | .local _ .vmem, ⟨12, _⟩ => ⟨S128x512, .bf16⟩
  | .local _ .vmem, ⟨13, _⟩ => ⟨S1x512, .f32⟩
  | .local _ .vmem, ⟨14, _⟩ => ⟨S512x128, .bf16⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_1 : Ref sig .tc := ⟨.hbm, 35, rfl⟩
abbrev main_v21 : Ref sig .tc := ⟨.hbm, 36, rfl⟩
abbrev main_v22 : Ref sig .tc := ⟨.hbm, 37, rfl⟩
abbrev main_c_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_6 : Ref sig .tc := ⟨.hbm, 61, rfl⟩
abbrev main_v42 : Ref sig .tc := ⟨.hbm, 62, rfl⟩
abbrev main_v43 : Ref sig .tc := ⟨.hbm, 63, rfl⟩
abbrev main_c_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bitsLt_bf16_f32 : FTy.bits .bf16 < FTy.bits .f32
  shapeCasts_S512_S1x512 : S512.ShapeCasts S1x512
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S50000 : S_.BroadcastsInDim S50000 (![] : Fin 0 → Fin S50000.rank)
  bcast_S50000_S50000x1_0 : S50000.BroadcastsInDim S50000x1 (![0] : Fin 1 → Fin S50000x1.rank)
  bcast_S_S50000x128 : S_.BroadcastsInDim S50000x128 (![] : Fin 0 → Fin S50000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x512_S2000x512_1_0_0_1_n_n_wf : DotDims.WF S2000x128 S128x512 S2000x512 [1] [0] [0] [1] [] []
  dot_S2000x512_S512x128_S2000x128_1_0_0_1_n_n_wf : DotDims.WF S2000x512 S512x128 S2000x128 [1] [0] [0] [1] [] []
  gather_S100000x128_S50000x1_S50000x128_1_0_n_n_0_1_1128_wf : GatherDims.WF S100000x128 S50000x1 S50000x128 [1] [0] [] [0] [] 1 ![1, 128]
  scatter_S100000x128_S50000x1_S50000x128_1_0_0_1_wf : ScatterDims.WF S100000x128 S50000x1 S50000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .bf16 = 32 ∨ (Rect.block (s := S128x512) S128x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .bf16 = 32 ∨ (Rect.block (s := S512x128) S512x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .bf16 = 32 ∨ (Rect.block (s := S50000x128) S2000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .bf16 = 32 ∨ (Rect.block (s := S128x512) S128x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S512x128.size a
  hwx1_3 : ∀ i : grid1.Coords, EltTy.bits .bf16 = 32 ∨ (Rect.block (s := S512x128) S512x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def scatter_S100000x128_S50000x1_S50000x128_1_0_0_1 : ScatterDims S100000x128 S50000x1 S50000x128 where
  updateWindowDims := [1]
  insertedWindowDims := [0]
  scatterDimsToOperandDims := [0]
  indexVectorDim := 1
  wf := scatter_S100000x128_S50000x1_S50000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S512x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x512 : Shape := ⟨2, ![128, 512]⟩
abbrev S512 : Shape := ⟨1, ![512]⟩
abbrev S512x128 : Shape := ⟨2, ![512, 128]⟩
abbrev S128 : Shape := ⟨1, ![128]⟩
abbrev S2x1600000 : Shape := ⟨2, ![2, 1600000]⟩
abbrev S50000 : Shape := ⟨1, ![50000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S50000x128 : Shape := ⟨2, ![50000, 128]⟩
abbrev S50000x512 : Shape := ⟨2, ![50000, 512]⟩
abbrev S1x512 : Shape := ⟨2, ![1, 512]⟩
abbrev S1x128 : Shape := ⟨2, ![1, 128]⟩
abbrev S100000x512 : Shape := ⟨2, ![100000, 512]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x512, .f32⟩
  | .hbm, ⟨2, _⟩ => ⟨S512, .f32⟩
  | .hbm, ⟨3, _⟩ => ⟨S512x128, .f32⟩
  | .hbm, ⟨4, _⟩ => ⟨S128, .f32⟩
  | .hbm, ⟨5, _⟩ => ⟨S128x512, .f32⟩
  | .hbm, ⟨6, _⟩ => ⟨S512, .f32⟩
  | .hbm, ⟨7, _⟩ => ⟨S512x128, .f32⟩
  | .hbm, ⟨8, _⟩ => ⟨S128, .f32⟩
  | .hbm, ⟨9, _⟩ => ⟨S2x1600000, .i32⟩
  | .hbm, ⟨10, _⟩ => ⟨S50000, .i32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S50000, .i32⟩
  | .hbm, ⟨34, _⟩ => ⟨S50000, .i1⟩
  | .hbm, ⟨35, _⟩ => ⟨S_, .i32⟩
  | .hbm, ⟨36, _⟩ => ⟨S50000, .i32⟩
  | .hbm, ⟨37, _⟩ => ⟨S50000, .i32⟩
  | .hbm, ⟨38, _⟩ => ⟨S50000, .i32⟩
  | .hbm, ⟨39, _⟩ => ⟨S50000x1, .i32⟩
  | .hbm, ⟨40, _⟩ => ⟨S50000x128, .f32⟩
  | .hbm, ⟨41, _⟩ => ⟨S50000x512, .f32⟩
  | .hbm, ⟨42, _⟩ => ⟨S1x512, .f32⟩
  | .hbm, ⟨43, _⟩ => ⟨S50000x512, .f32⟩
  | .hbm, ⟨44, _⟩ => ⟨S50000x512, .f32⟩
  | .hbm, ⟨45, _⟩ => ⟨S_, .f32⟩
  | .hbm, ⟨46, _⟩ => ⟨S50000x512, .f32⟩
  | .hbm, ⟨47, _⟩ => ⟨S50000x512, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S100000x512, .f32⟩
  | .hbm, ⟨53, _⟩ => ⟨S1x512, .f32⟩
  | .hbm, ⟨54, _⟩ => ⟨S100000x512, .f32⟩
  | .hbm, ⟨55, _⟩ => ⟨S100000x512, .f32⟩
  | .hbm, ⟨56, _⟩ => ⟨S_, .f32⟩
  | .hbm, ⟨57, _⟩ => ⟨S100000x512, .f32⟩
  | .hbm, ⟨58, _⟩ => ⟨S100000x512, .f32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S50000, .i32⟩
  | .hbm, ⟨65, _⟩ => ⟨S50000, .i1⟩
  | .hbm, ⟨66, _⟩ => ⟨S_, .i32⟩
  | .hbm, ⟨67, _⟩ => ⟨S50000, .i32⟩
  | .hbm, ⟨68, _⟩ => ⟨S50000, .i32⟩
  | .hbm, ⟨69, _⟩ => ⟨S50000, .i32⟩
  | .hbm, ⟨70, _⟩ => ⟨S50000x1, .i32⟩
  | .hbm, ⟨71, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_cst : Ref sig .tc := ⟨.hbm, 56, rfl⟩
abbrev main_call1_v0 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_4 : Ref sig .tc := ⟨.hbm, 63, rfl⟩
abbrev main_v42 : Ref sig .tc := ⟨.hbm, 64, rfl⟩
abbrev main_v43 : Ref sig .tc := ⟨.hbm, 65, rfl⟩
abbrev main_c_5 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S50000x1_S50000x128_1_0_n_n_0_1_1128_wf : GatherDims.WF S100000x128 S50000x1 S50000x128 [1] [0] [] [0] [] 1 ![1, 128]
  dot_S50000x128_S128x512_S50000x512_1_0_0_1_n_n_wf : DotDims.WF S50000x128 S128x512 S50000x512 [1] [0] [0] [1] [] []
  dot_S50000x512_S512x128_S50000x128_1_0_0_1_n_n_wf : DotDims.WF S50000x512 S512x128 S50000x128 [1] [0] [0] [1] [] []
  dot_S100000x128_S128x512_S100000x512_1_0_0_1_n_n_wf : DotDims.WF S100000x128 S128x512 S100000x512 [1] [0] [0] [1] [] []
  dot_S100000x512_S512x128_S100000x128_1_0_0_1_n_n_wf : DotDims.WF S100000x512 S512x128 S100000x128 [1] [0] [0] [1] [] []
  scatter_S100000x128_S50000x1_S50000x128_1_0_0_1_wf : ScatterDims.WF S100000x128 S50000x1 S50000x128 [1] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def scatter_S100000x128_S50000x1_S50000x128_1_0_0_1 : ScatterDims S100000x128 S50000x1 S50000x128 where
  updateWindowDims := [1]
  insertedWindowDims := [0]
  scatterDimsToOperandDims := [0]
  indexVectorDim := 1
  wf := scatter_S100000x128_S50000x1_S50000x128_1_0_0_1_wf

class Facts : Prop extends Facts₀ where

variable [Facts]
-- ==== Proof.Run.lean ====
/-
  The run of the kernel's program with its result named. The program is five segments — host operations, the
  first region, host operations, the second region, host operations — and the buffer contents at each segment
  boundary are a fold from the launch memory. Every weakly fair execution terminates without a fault, and in the
  final state every unscoped buffer holds the last boundary's contents: in particular the result buffer holds
  the last fold at the result, and every argument holds what it held at launch.
-/
import proofs.«176031_j73882027425872_2_alg».proof.Proof.Gen.KernelIdeal.Frame

set_option maxRecDepth 16384

noncomputable section

namespace Cert.Gin.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates, nothing faulting; the result buffer ends at
    the last boundary's contents and the arguments end as launched. -/
theorem run_result : θ_run defs (onTc (τ := τ) (main (F := F))) ⟨m, fun _ => 0, ρ⟩ (fun r => ∀ c : Dev nD,
      r.2.mem ((c.tc : Thread nD τ).loc main_v48) = W5 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v48 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.Gin.Run

end
-- ==== Proof.Spec.lean ====
/-
  One row of a two-layer perceptron over the extended reals, and a row gather of a pointwise combination.

  For a row h of 128 entries, weights W1 : 128 × 512 and W2 : 512 × 128 and biases b1 (512 entries) and b2 (128
  entries), entry j of the perceptron's output row is

      ( ∑ k, max (∑ d, h d · W1 d k + b1 k) 0 · W2 k j ) + b2 j.

  The zero of the rectifier is kept as the all-zero binary32 word, the way both programs spell it, so it is
  never evaluated. Every row of the result depends on the one row h of the input only: this is what lets a
  computation over 2000-row blocks, and one over the whole array, be compared row by row.
-/
import Idealize.ShloMosaic.PureOps.Ideal
import Idealize.ShloMosaic.Lib.ValueIdx

noncomputable section

namespace Cert.Gin

open Idealize.ShloMosaic

/-- Entry `j` of the perceptron's output for the input row `h`. -/
def mlpRow (h : Fin 128 → Ideal .f32) (W1 : Fin 128 → Fin 512 → Ideal .f32) (b1 : Fin 512 → Ideal .f32)
    (W2 : Fin 512 → Fin 128 → Ideal .f32) (b2 : Fin 128 → Ideal .f32) (j : Fin 128) : Ideal .f32 :=
  FloatOps.addf (F := Ideal) (φ := .f32)
    (∑ k : Fin 512, FloatOps.maximumf (F := Ideal) (φ := .f32)
        (FloatOps.addf (F := Ideal) (φ := .f32) (∑ d : Fin 128, h d * W1 d k) (b1 k))
        (FloatOps.ofBits (F := Ideal) .f32 0x00000000#32) * W2 k j)
    (b2 j)

/-- The perceptron's row depends on its input row and parameters entry by entry. -/
theorem mlpRow_congr {h h' : Fin 128 → Ideal .f32} {W1 W1' : Fin 128 → Fin 512 → Ideal .f32} {b1 b1' : Fin 512 → Ideal .f32}
    {W2 W2' : Fin 512 → Fin 128 → Ideal .f32} {b2 b2' : Fin 128 → Ideal .f32} (j : Fin 128)
    (hh : ∀ d, h d = h' d) (hW1 : ∀ d k, W1 d k = W1' d k) (hb1 : ∀ k, b1 k = b1' k)
    (hW2 : ∀ k j, W2 k j = W2' k j) (hb2 : ∀ j, b2 j = b2' j) :
    mlpRow h W1 b1 W2 b2 j = mlpRow h' W1' b1' W2' b2' j := by
  have e1 : h = h' := funext hh
  have e2 : W1 = W1' := funext fun d => funext (hW1 d)
  have e3 : b1 = b1' := funext hb1
  have e4 : W2 = W2' := funext fun k => funext (hW2 k)
  have e5 : b2 = b2' := funext hb2
  rw [e1, e2, e3, e4, e5]

/-- The same, also along an equation between the output columns. -/
theorem mlpRow_congr_at {h h' : Fin 128 → Ideal .f32} {W1 W1' : Fin 128 → Fin 512 → Ideal .f32} {b1 b1' : Fin 512 → Ideal .f32}
    {W2 W2' : Fin 512 → Fin 128 → Ideal .f32} {b2 b2' : Fin 128 → Ideal .f32} {j j' : Fin 128} (hj : j = j')
    (hh : ∀ d, h d = h' d) (hW1 : ∀ d k, W1 d k = W1' d k) (hb1 : ∀ k, b1 k = b1' k)
    (hW2 : ∀ k j, W2 k j = W2' k j) (hb2 : ∀ j, b2 j = b2' j) :
    mlpRow h W1 b1 W2 b2 j = mlpRow h' W1' b1' W2' b2' j' := by
  subst hj
  exact mlpRow_congr j hh hW1 hb1 hW2 hb2

/-- The perceptron applied to every row of an array of `R` rows: row r of the result is the perceptron's row
    of row r of `H`. -/
def rowsMlp {R : Nat} (H : (⟨2, ![R, 128]⟩ : Shape).Idx → Ideal .f32) (W1 : (⟨2, ![128, 512]⟩ : Shape).Idx → Ideal .f32)
    (b1 : Fin 512 → Ideal .f32) (W2 : (⟨2, ![512, 128]⟩ : Shape).Idx → Ideal .f32) (b2 : Fin 128 → Ideal .f32) :
    (⟨2, ![R, 128]⟩ : Shape).Idx → Ideal .f32 :=
  fun i => mlpRow (fun d => H (ValueIdx.ix2 ⟨(i 0).val, ValueIdx.idx2_lt0 i⟩ d)) (fun d k => W1 (ValueIdx.ix2 d k)) b1
    (fun k j => W2 (ValueIdx.ix2 k j)) b2 ⟨(i 1).val, ValueIdx.idx2_lt1 i⟩

theorem rowsMlp_apply {R : Nat} (H : (⟨2, ![R, 128]⟩ : Shape).Idx → Ideal .f32) (W1 : (⟨2, ![128, 512]⟩ : Shape).Idx → Ideal .f32)
    (b1 : Fin 512 → Ideal .f32) (W2 : (⟨2, ![512, 128]⟩ : Shape).Idx → Ideal .f32) (b2 : Fin 128 → Ideal .f32)
    (r : Fin R) (j : Fin 128) :
    rowsMlp H W1 b1 W2 b2 (ValueIdx.ix2 r j)
      = mlpRow (fun d => H (ValueIdx.ix2 r d)) (fun d k => W1 (ValueIdx.ix2 d k)) b1 (fun k j => W2 (ValueIdx.ix2 k j)) b2 j := rfl

end Cert.Gin

end
-- ==== Proof.Payload.lean ====
/-
  The two kernel bodies at an index. Each body computes, from its loaded blocks, one 2000 × 128 block of a
  two-layer perceptron: a matrix product with the first weight block, the first bias row repeated down the
  rows, the rectifier, a matrix product with the second weight block, the second bias row repeated. A matrix
  product into a zero accumulator is, over the extended reals, the plain sum over the contracted axis; a
  change of float format is the identity. So entry (p, q) of the block is the perceptron's row of Spec.lean
  applied to row p of the body's input: for the first body that input row is x·1 + nh (its two loaded row
  blocks combined entry by entry), for the second it is the loaded row block itself.
-/
import proofs.«176031_j73882027425872_2_alg».proof.Proof.Spec
import proofs.«176031_j73882027425872_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Gin.Body

open Idealize.ShloMosaic Idealize.ShloMosaic.ValueIdx Cert.KernelIdeal Cert.KernelIdeal.Gen

/-! ## The two matrix products, read at an index -/

theorem mmA_lhs0 (i : S2000x512.Idx) (q : dot_S2000x128_S128x512_S2000x512_1_0_0_1_n_n.contr.Idx) :
    (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
theorem mmA_rhs1 (i : S2000x512.Idx) (q : dot_S2000x128_S128x512_S2000x512_1_0_0_1_n_n.contr.Idx) :
    (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

/-- The first product, [2000,128] × [128,512] into zeros, at (p, k): the sum over the 128 contracted entries. -/
theorem mmA_apply (l : FVec Ideal S2000x128 .bf16) (r : FVec Ideal S128x512 .bf16) (p : Fin 2000) (k : Fin 512) :
    matmul dot_S2000x128_S128x512_S2000x512_1_0_0_1_n_n none l r (constant S2000x512 .f32 0x00000000#32) (ix2 p k)
      = ∑ d : Fin 128, l (ix2 p d) * r (ix2 d k) := by
  refine (Ideal.matmul_constant_zero_apply dot_S2000x128_S128x512_S2000x512_1_0_0_1_n_n none l r (ix2 p k)).trans ?_
  rw [← Equiv.sum_comp (contrEquiv1 dot_S2000x128_S128x512_S2000x512_1_0_0_1_n_n 128 rfl rfl).symm]
  refine Finset.sum_congr rfl fun d _ => ?_
  have hk := contrEquiv1_symm_val dot_S2000x128_S128x512_S2000x512_1_0_0_1_n_n 128 rfl rfl d
  have el : dot_S2000x128_S128x512_S2000x512_1_0_0_1_n_n.lhsIdx (ix2 p k) ((contrEquiv1 dot_S2000x128_S128x512_S2000x512_1_0_0_1_n_n 128 rfl rfl).symm d) = ix2 p d := funext fun a => Fin.ext (by
    match a with
    | ⟨0, _⟩ => exact mmA_lhs0 _ _
    | ⟨1, _⟩ => exact ((dot_S2000x128_S128x512_S2000x512_1_0_0_1_n_n.lhsIdx_val_of_single rfl _ _).trans hk))
  have er : dot_S2000x128_S128x512_S2000x512_1_0_0_1_n_n.rhsIdx (ix2 p k) ((contrEquiv1 dot_S2000x128_S128x512_S2000x512_1_0_0_1_n_n 128 rfl rfl).symm d) = ix2 d k := funext fun a => Fin.ext (by
    match a with
    | ⟨0, _⟩ => exact ((dot_S2000x128_S128x512_S2000x512_1_0_0_1_n_n.rhsIdx_val_of_single rfl _ _).trans hk)
    | ⟨1, _⟩ => exact mmA_rhs1 _ _)
  rw [el, er]

theorem mmB_lhs0 (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem mmB_rhs1 (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The second product, [2000,512] × [512,128] into zeros, at (p, q): the sum over the 512 contracted entries. -/
theorem mmB_apply (l : FVec Ideal S2000x512 .bf16) (r : FVec Ideal S512x128 .bf16) (p : Fin 2000) (q : Fin 128) :
    matmul dot_S2000x512_S512x128_S2000x128_1_0_0_1_n_n none l r (constant S2000x128 .f32 0x00000000#32) (ix2 p q)
      = ∑ k : Fin 512, l (ix2 p k) * r (ix2 k q) := by
  refine (Ideal.matmul_constant_zero_apply dot_S2000x512_S512x128_S2000x128_1_0_0_1_n_n none l r (ix2 p q)).trans ?_
  rw [← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx (ix2 p q) ((contrEquiv1 dot_S2000x512_S512x128_S2000x128_1_0_0_1_n_n 512 rfl rfl).symm k) = ix2 p k := funext fun a => Fin.ext (by
    match a with
    | ⟨0, _⟩ => exact mmB_lhs0 _ _
    | ⟨1, _⟩ => exact ((dot_S2000x512_S512x128_S2000x128_1_0_0_1_n_n.lhsIdx_val_of_single rfl _ _).trans hk))
  have er : dot_S2000x512_S512x128_S2000x128_1_0_0_1_n_n.rhsIdx (ix2 p q) ((contrEquiv1 dot_S2000x512_S512x128_S2000x128_1_0_0_1_n_n 512 rfl rfl).symm k) = ix2 k q := funext fun a => Fin.ext (by
    match a with
    | ⟨0, _⟩ => exact ((dot_S2000x512_S512x128_S2000x128_1_0_0_1_n_n.rhsIdx_val_of_single rfl _ _).trans hk)
    | ⟨1, _⟩ => exact mmB_rhs1 _ _)
  rw [el, er]

/-! ## The perceptron shared by the two bodies -/

/-- From the input block `h` on: product, bias row, rectifier, product, bias row — entry (p, q) is the
    perceptron's row of row p of `h`. -/
theorem tail_apply (h : FVec Ideal S2000x128 .bf16) (w1 : FVec Ideal S128x512 .bf16) (c1 : FVec Ideal S1x512 .f32)
    (w2 : FVec Ideal S512x128 .bf16) (c2 : FVec Ideal S1x128 .f32) (p : Fin 2000) (q : Fin 128) :
    addf (matmul dot_S2000x512_S512x128_S2000x128_1_0_0_1_n_n none
        (truncf .bf16 (maximumf (addf (matmul dot_S2000x128_S128x512_S2000x512_1_0_0_1_n_n none h
            (shapeCast S128x512 w1 shapeCasts_S128x512_S128x512) (constant S2000x512 .f32 0x00000000#32))
          (broadcastTo S2000x512 (shapeCast S1x512 c1 shapeCasts_S1x512_S1x512) broadcasts_S1x512_S2000x512))
          (broadcast S2000x512 (Scalar.ofBits (F := Ideal) .f32 0x00000000#32))) bitsLt_bf16_f32)
        (shapeCast S512x128 w2 shapeCasts_S512x128_S512x128) (constant S2000x128 .f32 0x00000000#32))
      (broadcastTo S2000x128 (shapeCast S1x128 c2 shapeCasts_S1x128_S1x128) broadcasts_S1x128_S2000x128) (ix2 p q)
    = mlpRow (fun d => h (ix2 p d)) (fun d k => w1 (ix2 d k)) (fun k => c1 (ix2 (0 : Fin 1) k))
        (fun k j => w2 (ix2 k j)) (fun j => c2 (ix2 (0 : Fin 1) j)) q := by
  rw [shapeCast_self, shapeCast_self, shapeCast_self, shapeCast_self]
  unfold mlpRow
  rw [addf_apply, mmB_apply, broadcastTo_1b_ab_apply]
  refine congrArg (· + c2 (ix2 (0 : Fin 1) q)) (Finset.sum_congr rfl fun k _ => ?_)
  rw [truncf_apply, maximumf_apply, addf_apply, mmA_apply, broadcastTo_1b_ab_apply]
  rfl

/-- The first body's stored block at (p, q). -/
theorem pay0_apply (x0 x1 : Vec Ideal S2000x128 .f32) (x2 : Vec Ideal S128x512 .bf16) (x3 : Vec Ideal S1x512 .f32)
    (x4 : Vec Ideal S512x128 .bf16) (x5 : Vec Ideal S1x128 .f32) (p : Fin 2000) (q : Fin 128) :
    k0_pay1 x0 x1 x2 x3 x4 x5 (ix2 p q)
      = mlpRow (fun d => x0 (ix2 p d) * Ideal.ofBits .f32 0x3F800000#32 + x1 (ix2 p d)) (fun d k => x2 (ix2 d k))
          (fun k => x3 (ix2 (0 : Fin 1) k)) (fun k j => x4 (ix2 k j)) (fun j => x5 (ix2 (0 : Fin 1) j)) q := by
  unfold k0_pay1
  refine (tail_apply _ x2 x3 x4 x5 p q).trans ?_
  refine mlpRow_congr q (fun d => ?_) (fun _ _ => rfl) (fun _ => rfl) (fun _ _ => rfl) (fun _ => rfl)
  rw [shapeCast_self]
  rfl

/-- The second body's stored block at (p, q). -/
theorem pay1_apply (x0 : Vec Ideal S2000x128 .bf16) (x1 : Vec Ideal S128x512 .bf16) (x2 : Vec Ideal S1x512 .f32)
    (x3 : Vec Ideal S512x128 .bf16) (x4 : Vec Ideal S1x128 .f32) (p : Fin 2000) (q : Fin 128) :
    k1_pay1 x0 x1 x2 x3 x4 (ix2 p q)
      = mlpRow (fun d => x0 (ix2 p d)) (fun d k => x1 (ix2 d k))
          (fun k => x2 (ix2 (0 : Fin 1) k)) (fun k j => x3 (ix2 k j)) (fun j => x4 (ix2 (0 : Fin 1) j)) q := by
  unfold k1_pay1
  refine (tail_apply _ x1 x2 x3 x4 p q).trans ?_
  refine mlpRow_congr q (fun d => ?_) (fun _ _ => rfl) (fun _ => rfl) (fun _ _ => rfl) (fun _ => rfl)
  rw [shapeCast_self]

end Cert.Gin.Body

end
-- ==== Proof.Region0.lean ====
/-
  The first kernel region, from blocks to the whole array. The region walks 50 grid points; at point t it reads
  rows 2000·t … 2000·t + 1999 of the node features and of the neighbour sums, the whole of both weight matrices
  and bias rows, and writes back rows 2000·t … 2000·t + 1999 of its result. The stored block is the perceptron
  of Payload.lean applied to the input rows, so what point t writes back is block t of ONE function of the
  arrays the region finds: the perceptron applied to every row of x·1 + nh. The 50 blocks tile the 100000 rows
  (row r lies in block r / 2000), so after the region the result array is that function.
-/
import proofs.«176031_j73882027425872_2_alg».proof.Proof.Spec
import proofs.«176031_j73882027425872_2_alg».proof.Proof.Payload
import proofs.«176031_j73882027425872_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Gin.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the row-blocked windows (features, neighbour sums,
    result) sit at block (t, 0), the parameters at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 50 := by have := t.isLt; have hN : cfg0.N = 50 := N_0; omega

/-- The result array of the region as one function of the arrays it finds: every row of x·1 + nh through the
    perceptron with the weight matrices and bias rows as found. -/
def Gof (X NH : S100000x128.Idx → Ideal .f32) (W1 : S128x512.Idx → Ideal .bf16) (B1 : S1x512.Idx → Ideal .f32)
    (W2 : S512x128.Idx → Ideal .bf16) (B2 : S1x128.Idx → Ideal .f32) : S100000x128.Idx → Ideal .f32 :=
  rowsMlp (fun i => X i * Ideal.ofBits .f32 0x3F800000#32 + NH i)
    W1 (fun k => B1 (ix2 (0 : Fin 1) k)) W2 (fun j => B2 (ix2 (0 : Fin 1) j))

/-- `Gof` of the arrays the region finds. -/
def G (c : Dev nD) : S100000x128.Idx → Ideal .f32 :=
  Gof (V c main_arg0) (V c main_v13) (V c main_v14) (V c main_v18) (V c main_v15) (V c main_v19)

/-- Row p of the features block at point t is row 2000·t + p of the features. -/
theorem blk_x (c : Dev nD) (t : Fin cfg0.N) (p : Fin 2000) (d : Fin 128) :
    (iblk0 V c 0 t : Vec Ideal S2000x128 .f32) (ix2 p d)
      = (V c main_arg0 : S100000x128.Idx → Ideal .f32) (ix2 ⟨2000 * t.val + p.val, by have := t_lt t; omega⟩ d) := by
  obtain ⟨e0, e1, -⟩ := idx_facts t
  unfold iblk0
  rw [View.read_apply]
  show V c main_arg0 _ = V c main_arg0 _
  refine congrArg _ (funext fun a => Fin.ext ?_)
  match a with
  | ⟨0, _⟩ => show win0_0.index t (0 : Fin 2) * 2000 + 1 * p.val = 2000 * t.val + p.val; rw [e0]; omega
  | ⟨1, _⟩ => show win0_0.index t (1 : Fin 2) * 128 + 1 * d.val = d.val; rw [e1]; omega

/-- Row p of the neighbour-sum block at point t is row 2000·t + p of the neighbour sums. -/
theorem blk_nh (c : Dev nD) (t : Fin cfg0.N) (p : Fin 2000) (d : Fin 128) :
    (iblk0 V c 1 t : Vec Ideal S2000x128 .f32) (ix2 p d)
      = (V c main_v13 : S100000x128.Idx → Ideal .f32) (ix2 ⟨2000 * t.val + p.val, by have := t_lt t; omega⟩ d) := by
  obtain ⟨-, -, e0, e1, -⟩ := idx_facts t
  unfold iblk0
  rw [View.read_apply]
  show V c main_v13 _ = V c main_v13 _
  refine congrArg _ (funext fun a => Fin.ext ?_)
  match a with
  | ⟨0, _⟩ => show win0_1.index t (0 : Fin 2) * 2000 + 1 * p.val = 2000 * t.val + p.val; rw [e0]; omega
  | ⟨1, _⟩ => show win0_1.index t (1 : Fin 2) * 128 + 1 * d.val = d.val; rw [e1]; omega

/-- The parameter blocks are the parameter arrays, at every point. -/
theorem blk_w1 (c : Dev nD) (t : Fin cfg0.N) (d : Fin 128) (k : Fin 512) :
    (iblk0 V c 2 t : Vec Ideal S128x512 .bf16) (ix2 d k) = (V c main_v14 : S128x512.Idx → Ideal .bf16) (ix2 d k) := by
  obtain ⟨-, -, -, -, e0, e1, -⟩ := idx_facts t
  unfold iblk0
  rw [View.read_apply]
  show V c main_v14 _ = V c main_v14 _
  refine congrArg _ (funext fun a => Fin.ext ?_)
  match a with
  | ⟨0, _⟩ => show win0_2.index t (0 : Fin 2) * 128 + 1 * d.val = d.val; rw [e0]; omega
  | ⟨1, _⟩ => show win0_2.index t (1 : Fin 2) * 512 + 1 * k.val = k.val; rw [e1]; omega

theorem blk_b1 (c : Dev nD) (t : Fin cfg0.N) (k : Fin 512) :
    (iblk0 V c 3 t : Vec Ideal S1x512 .f32) (ix2 (0 : Fin 1) k) = (V c main_v18 : S1x512.Idx → Ideal .f32) (ix2 (0 : Fin 1) k) := by
  obtain ⟨-, -, -, -, -, -, e0, e1, -⟩ := idx_facts t
  unfold iblk0
  rw [View.read_apply]
  show V c main_v18 _ = V c main_v18 _
  refine congrArg _ (funext fun a => Fin.ext ?_)
  match a with
  | ⟨0, _⟩ => show win0_3.index t (0 : Fin 2) * 1 + 1 * 0 = 0; rw [e0]
  | ⟨1, _⟩ => show win0_3.index t (1 : Fin 2) * 512 + 1 * k.val = k.val; rw [e1]; omega

theorem blk_w2 (c : Dev nD) (t : Fin cfg0.N) (k : Fin 512) (j : Fin 128) :
    (iblk0 V c 4 t : Vec Ideal S512x128 .bf16) (ix2 k j) = (V c main_v15 : S512x128.Idx → Ideal .bf16) (ix2 k j) := by
  obtain ⟨-, -, -, -, -, -, -, -, e0, e1, -⟩ := idx_facts t
  unfold iblk0
  rw [View.read_apply]
  show V c main_v15 _ = V c main_v15 _
  refine congrArg _ (funext fun a => Fin.ext ?_)
  match a with
  | ⟨0, _⟩ => show win0_4.index t (0 : Fin 2) * 512 + 1 * k.val = k.val; rw [e0]; omega
  | ⟨1, _⟩ => show win0_4.index t (1 : Fin 2) * 128 + 1 * j.val = j.val; rw [e1]; omega

theorem blk_b2 (c : Dev nD) (t : Fin cfg0.N) (j : Fin 128) :
    (iblk0 V c 5 t : Vec Ideal S1x128 .f32) (ix2 (0 : Fin 1) j) = (V c main_v19 : S1x128.Idx → Ideal .f32) (ix2 (0 : Fin 1) j) := by
  obtain ⟨-, -, -, -, -, -, -, -, -, -, e0, e1, -⟩ := idx_facts t
  unfold iblk0
  rw [View.read_apply]
  show V c main_v19 _ = V c main_v19 _
  refine congrArg _ (funext fun a => Fin.ext ?_)
  match a with
  | ⟨0, _⟩ => show win0_5.index t (0 : Fin 2) * 1 + 1 * 0 = 0; rw [e0]
  | ⟨1, _⟩ => show win0_5.index t (1 : Fin 2) * 128 + 1 * j.val = j.val; rw [e1]; omega

/-- What point t writes back is block t of `G`. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x512) hz, View.ld_unit_zero (S := S1x512) hz,
    View.ld_unit_zero (S := S512x128) hz, View.ld_unit_zero (S := S1x128) hz]
  funext y
  have hy0 : (y 0).val < 2000 := (y 0).isLt
  have hy1 : (y 1).val < 128 := (y 1).isLt
  obtain ⟨-, -, -, -, -, -, -, -, -, -, -, -, e0, e1⟩ := idx_facts t
  have hx : (win0 6).xinj (grid0.coords t) y = (ix2 ⟨(y 0).val, hy0⟩ ⟨(y 1).val, hy1⟩ : S2000x128.Idx) :=
    funext fun a => Fin.ext (by match a with | ⟨0, _⟩ => rfl | ⟨1, _⟩ => rfl)
  have hi : ((cfg0.win 6).blk t).view.emb y
      = (ix2 ⟨2000 * t.val + (y 0).val, by have := t_lt t; omega⟩ ⟨(y 1).val, hy1⟩ : S100000x128.Idx) :=
    funext fun a => Fin.ext (by
      match a with
      | ⟨0, _⟩ => show win0_6.index t (0 : Fin 2) * 2000 + 1 * (y 0).val = 2000 * t.val + (y 0).val; rw [e0]; omega
      | ⟨1, _⟩ => show win0_6.index t (1 : Fin 2) * 128 + 1 * (y 1).val = (y 1).val; rw [e1]; omega)
  show k0_pay1 (iblk0 V c 0 t) (iblk0 V c 1 t) (iblk0 V c 2 t) (iblk0 V c 3 t) (iblk0 V c 4 t) (iblk0 V c 5 t)
      ((win0 6).xinj (grid0.coords t) y) = G V c (((cfg0.win 6).blk t).view.emb y)
  rw [hx, hi]
  refine (Body.pay0_apply (iblk0 V c 0 t) (iblk0 V c 1 t) (iblk0 V c 2 t) (iblk0 V c 3 t) (iblk0 V c 4 t) (iblk0 V c 5 t)
    ⟨(y 0).val, hy0⟩ ⟨(y 1).val, hy1⟩).trans ?_
  unfold G Gof
  rw [rowsMlp_apply]
  refine mlpRow_congr _ (fun d => ?_) (fun d k => blk_w1 V c t d k) (fun k => blk_b1 V c t k) (fun k j => blk_w2 V c t k j)
    (fun j => blk_b2 V c t j)
  rw [blk_x V c t ⟨(y 0).val, hy0⟩ d, blk_nh V c t ⟨(y 0).val, hy0⟩ d]

/-- An index of the result array is in point t's block iff each coordinate is in the block's range. -/
theorem mem_blk (t : Fin cfg0.N) (i : S100000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v20).slice (win0_6.rect t)).set ↔ _
  rw [View.set_slice_whole, Rect.mem_set_unit]
  exact Iff.rfl

/-- Row r of the result lies in the block of point r / 2000. -/
theorem cover (i : S100000x128.Idx) : ∃ t : Fin cfg0.N, (cfg0.win 6).flush t = true ∧ i ∈ ((cfg0.win 6).blk t).view.set := by
  have h0 : (i 0).val < 100000 := (i 0).isLt
  have h1 : (i 1).val < 128 := (i 1).isLt
  have hN : cfg0.N = 50 := N_0
  refine ⟨⟨(i 0).val / 2000, by omega⟩, flush0_6 _, ?_⟩
  rw [mem_blk]
  obtain ⟨-, -, -, -, -, -, -, -, -, -, -, -, e0, e1⟩ := idx_facts ⟨(i 0).val / 2000, by omega⟩
  intro a
  match a with
  | ⟨0, _⟩ =>
    show win0_6.index ⟨(i 0).val / 2000, _⟩ (0 : Fin 2) * 2000 ≤ (i 0).val ∧ (i 0).val < win0_6.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win0_6.index ⟨(i 0).val / 2000, _⟩ (1 : Fin 2) * 128 ≤ (i 1).val ∧ (i 1).val < win0_6.index ⟨(i 0).val / 2000, _⟩ (1 : Fin 2) * 128 + 128
    rw [e1]; omega

/-- After the region its result array is `G` of the arrays it found. -/
theorem final (c : Dev nD) : (dat0 V c).arrAt 6 cfg0.N = G V c :=
  (dat0 V c).arrAt_eq_of_cover 6 (G V c) (fun t _ => flushed_eq V c t) cover

end Cert.Gin.Region0

end
-- ==== Proof.Region1.lean ====
/-
  The second kernel region, from blocks to the whole array. The region walks 25 grid points; at point t it reads
  rows 2000·t … 2000·t + 1999 of its input (the combined rows of the listed nodes), the whole of both weight
  matrices and bias rows, and writes back rows 2000·t … 2000·t + 1999 of its result. The stored block is the
  perceptron of Payload.lean applied to the input rows, so what point t writes back is block t of ONE function
  of the arrays the region finds: the perceptron applied to every row of the input. The 25 blocks tile the
  50000 rows (row r lies in block r / 2000), so after the region the result array is that function.
-/
import proofs.«176031_j73882027425872_2_alg».proof.Proof.Spec
import proofs.«176031_j73882027425872_2_alg».proof.Proof.Payload
import proofs.«176031_j73882027425872_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Gin.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the row-blocked windows (input, result) sit at block
    (t, 0), the parameters at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 25 := by have := t.isLt; have hN : cfg1.N = 25 := N_1; omega

/-- The result array of the region as one function of the arrays it is given: every row of the input through the
    perceptron. -/
def Gof (H : S50000x128.Idx → Ideal .bf16) (W1 : S128x512.Idx → Ideal .bf16) (B1 : S1x512.Idx → Ideal .f32)
    (W2 : S512x128.Idx → Ideal .bf16) (B2 : S1x128.Idx → Ideal .f32) : S50000x128.Idx → Ideal .f32 :=
  rowsMlp H W1 (fun k => B1 (ix2 (0 : Fin 1) k)) W2 (fun j => B2 (ix2 (0 : Fin 1) j))

/-- `Gof` of the arrays the region finds. -/
def G (c : Dev nD) : S50000x128.Idx → Ideal .f32 :=
  Gof (V c main_v38) (V c main_v16) (V c main_v39) (V c main_v17) (V c main_v40)

/-- Row p of the input block at point t is row 2000·t + p of the input. -/
theorem blk_h (c : Dev nD) (t : Fin cfg1.N) (p : Fin 2000) (d : Fin 128) :
    (iblk1 V c 0 t : Vec Ideal S2000x128 .bf16) (ix2 p d)
      = (V c main_v38 : S50000x128.Idx → Ideal .bf16) (ix2 ⟨2000 * t.val + p.val, by have := t_lt t; omega⟩ d) := by
  obtain ⟨e0, e1, -⟩ := idx_facts t
  unfold iblk1
  rw [View.read_apply]
  show V c main_v38 _ = V c main_v38 _
  refine congrArg _ (funext fun a => Fin.ext ?_)
  match a with
  | ⟨0, _⟩ => show win1_0.index t (0 : Fin 2) * 2000 + 1 * p.val = 2000 * t.val + p.val; rw [e0]; omega
  | ⟨1, _⟩ => show win1_0.index t (1 : Fin 2) * 128 + 1 * d.val = d.val; rw [e1]; omega

/-- The parameter blocks are the parameter arrays, at every point. -/
theorem blk_w1 (c : Dev nD) (t : Fin cfg1.N) (d : Fin 128) (k : Fin 512) :
    (iblk1 V c 1 t : Vec Ideal S128x512 .bf16) (ix2 d k) = (V c main_v16 : S128x512.Idx → Ideal .bf16) (ix2 d k) := by
  obtain ⟨-, -, e0, e1, -⟩ := idx_facts t
  unfold iblk1
  rw [View.read_apply]
  show V c main_v16 _ = V c main_v16 _
  refine congrArg _ (funext fun a => Fin.ext ?_)
  match a with
  | ⟨0, _⟩ => show win1_1.index t (0 : Fin 2) * 128 + 1 * d.val = d.val; rw [e0]; omega
  | ⟨1, _⟩ => show win1_1.index t (1 : Fin 2) * 512 + 1 * k.val = k.val; rw [e1]; omega

theorem blk_b1 (c : Dev nD) (t : Fin cfg1.N) (k : Fin 512) :
    (iblk1 V c 2 t : Vec Ideal S1x512 .f32) (ix2 (0 : Fin 1) k) = (V c main_v39 : S1x512.Idx → Ideal .f32) (ix2 (0 : Fin 1) k) := by
  obtain ⟨-, -, -, -, e0, e1, -⟩ := idx_facts t
  unfold iblk1
  rw [View.read_apply]
  show V c main_v39 _ = V c main_v39 _
  refine congrArg _ (funext fun a => Fin.ext ?_)
  match a with
  | ⟨0, _⟩ => show win1_2.index t (0 : Fin 2) * 1 + 1 * 0 = 0; rw [e0]
  | ⟨1, _⟩ => show win1_2.index t (1 : Fin 2) * 512 + 1 * k.val = k.val; rw [e1]; omega

theorem blk_w2 (c : Dev nD) (t : Fin cfg1.N) (k : Fin 512) (j : Fin 128) :
    (iblk1 V c 3 t : Vec Ideal S512x128 .bf16) (ix2 k j) = (V c main_v17 : S512x128.Idx → Ideal .bf16) (ix2 k j) := by
  obtain ⟨-, -, -, -, -, -, e0, e1, -⟩ := idx_facts t
  unfold iblk1
  rw [View.read_apply]
  show V c main_v17 _ = V c main_v17 _
  refine congrArg _ (funext fun a => Fin.ext ?_)
  match a with
  | ⟨0, _⟩ => show win1_3.index t (0 : Fin 2) * 512 + 1 * k.val = k.val; rw [e0]; omega
  | ⟨1, _⟩ => show win1_3.index t (1 : Fin 2) * 128 + 1 * j.val = j.val; rw [e1]; omega

theorem blk_b2 (c : Dev nD) (t : Fin cfg1.N) (j : Fin 128) :
    (iblk1 V c 4 t : Vec Ideal S1x128 .f32) (ix2 (0 : Fin 1) j) = (V c main_v40 : S1x128.Idx → Ideal .f32) (ix2 (0 : Fin 1) j) := by
  obtain ⟨-, -, -, -, -, -, -, -, e0, e1, -⟩ := idx_facts t
  unfold iblk1
  rw [View.read_apply]
  show V c main_v40 _ = V c main_v40 _
  refine congrArg _ (funext fun a => Fin.ext ?_)
  match a with
  | ⟨0, _⟩ => show win1_4.index t (0 : Fin 2) * 1 + 1 * 0 = 0; rw [e0]
  | ⟨1, _⟩ => show win1_4.index t (1 : Fin 2) * 128 + 1 * j.val = j.val; rw [e1]; omega

/-- What point t writes back is block t of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x512) hz, View.ld_unit_zero (S := S1x512) hz,
    View.ld_unit_zero (S := S512x128) hz, View.ld_unit_zero (S := S1x128) hz]
  funext y
  have hy0 : (y 0).val < 2000 := (y 0).isLt
  have hy1 : (y 1).val < 128 := (y 1).isLt
  obtain ⟨-, -, -, -, -, -, -, -, -, -, e0, e1⟩ := idx_facts t
  have hx : (win1 5).xinj (grid1.coords t) y = (ix2 ⟨(y 0).val, hy0⟩ ⟨(y 1).val, hy1⟩ : S2000x128.Idx) :=
    funext fun a => Fin.ext (by match a with | ⟨0, _⟩ => rfl | ⟨1, _⟩ => rfl)
  have hi : ((cfg1.win 5).blk t).view.emb y
      = (ix2 ⟨2000 * t.val + (y 0).val, by have := t_lt t; omega⟩ ⟨(y 1).val, hy1⟩ : S50000x128.Idx) :=
    funext fun a => Fin.ext (by
      match a with
      | ⟨0, _⟩ => show win1_5.index t (0 : Fin 2) * 2000 + 1 * (y 0).val = 2000 * t.val + (y 0).val; rw [e0]; omega
      | ⟨1, _⟩ => show win1_5.index t (1 : Fin 2) * 128 + 1 * (y 1).val = (y 1).val; rw [e1]; omega)
  show k1_pay1 (iblk1 V c 0 t) (iblk1 V c 1 t) (iblk1 V c 2 t) (iblk1 V c 3 t) (iblk1 V c 4 t)
      ((win1 5).xinj (grid1.coords t) y) = G V c (((cfg1.win 5).blk t).view.emb y)
  rw [hx, hi]
  refine (Body.pay1_apply (iblk1 V c 0 t) (iblk1 V c 1 t) (iblk1 V c 2 t) (iblk1 V c 3 t) (iblk1 V c 4 t)
    ⟨(y 0).val, hy0⟩ ⟨(y 1).val, hy1⟩).trans ?_
  unfold G Gof
  rw [rowsMlp_apply]
  exact mlpRow_congr _ (fun d => blk_h V c t ⟨(y 0).val, hy0⟩ d) (fun d k => blk_w1 V c t d k) (fun k => blk_b1 V c t k)
    (fun k j => blk_w2 V c t k j) (fun j => blk_b2 V c t j)

/-- An index of the result array is in point t's block iff each coordinate is in the block's range. -/
theorem mem_blk (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v41).slice (win1_5.rect t)).set ↔ _
  rw [View.set_slice_whole, Rect.mem_set_unit]
  exact Iff.rfl

/-- Row r of the result lies in the block of point r / 2000. -/
theorem cover (i : S50000x128.Idx) : ∃ t : Fin cfg1.N, (cfg1.win 5).flush t = true ∧ i ∈ ((cfg1.win 5).blk t).view.set := by
  have h0 : (i 0).val < 50000 := (i 0).isLt
  have h1 : (i 1).val < 128 := (i 1).isLt
  have hN : cfg1.N = 25 := N_1
  refine ⟨⟨(i 0).val / 2000, by omega⟩, flush1_5 _, ?_⟩
  rw [mem_blk]
  obtain ⟨-, -, -, -, -, -, -, -, -, -, e0, e1⟩ := idx_facts ⟨(i 0).val / 2000, by omega⟩
  intro a
  match a with
  | ⟨0, _⟩ =>
    show win1_5.index ⟨(i 0).val / 2000, _⟩ (0 : Fin 2) * 2000 ≤ (i 0).val ∧ (i 0).val < win1_5.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, _⟩ (1 : Fin 2) * 128 ≤ (i 1).val ∧ (i 1).val < win1_5.index ⟨(i 0).val / 2000, _⟩ (1 : Fin 2) * 128 + 128
    rw [e1]; omega

/-- After the region its result array is `G` of the arrays it found. -/
theorem final (c : Dev nD) : (dat1 V c).arrAt 5 cfg1.N = G V c :=
  (dat1 V c).arrAt_eq_of_cover 5 (G V c) (fun t _ => flushed_eq V c t) cover

end Cert.Gin.Region1

end
-- ==== Proof.RefRows.lean ====
/-
  The reference, read row by row.

  The reference computes h = x + A x (the input plus the sum of the neighbours' rows along the edges), applies
  one two-layer perceptron to every row of h, and a second one to the rows of h gathered at the listed nodes.
  Here each of these is read at one index: an entry of h is the input's entry times one plus the aggregated
  entry; a gathered row of h is that combination of the gathered rows; and an entry of either perceptron's
  output is the perceptron's row function on the corresponding row of its input.
-/
import proofs.«176031_j73882027425872_2_alg».proof.Proof.Spec
import proofs.«176031_j73882027425872_2_alg».proof.Proof.Gen.ReferenceIdeal.Read
import Idealize.ShloMosaic.Lib.ValueIdx

noncomputable section

namespace Cert.Gin.Ref

open Idealize.ShloMosaic Idealize.ShloMosaic.ValueIdx Cert.ReferenceIdeal Cert.ReferenceIdeal.Read

/-- An entry of h is the input's entry times the literal one, plus the entry of the aggregated neighbours. -/
theorem h_apply (x0 : (⟨S100000x128, .f32⟩ : BufTy).Contents (Elt Ideal))
    (x9 : (⟨S2x1600000, .i32⟩ : BufTy).Contents (Elt Ideal)) (i : S100000x128.Idx) :
    val_main_v16 (F := Ideal) x0 x9 i
      = x0 i * Ideal.ofBits .f32 0x3F800000#32 + val_main_v13 (F := Ideal) x0 x9 i := by
  rw [val_main_v16_apply, val_main_v15_apply, val_main_v14_apply, val_main_cst_1_apply,
    Ideal.addf_def, Ideal.mulf_def, Ideal.ofBits_def]

/-- A gathered row of h is the same combination of the gathered rows: the gather reads its operand at one
    index that depends on the listed nodes and the position only. -/
theorem gather_apply (x0 : (⟨S100000x128, .f32⟩ : BufTy).Contents (Elt Ideal))
    (x9 : (⟨S2x1600000, .i32⟩ : BufTy).Contents (Elt Ideal))
    (x10 : (⟨S50000, .i32⟩ : BufTy).Contents (Elt Ideal)) (y : S50000x128.Idx) :
    val_main_v23 (F := Ideal) x0 x9 x10 y
      = Host.gather gather_S100000x128_S50000x1_S50000x128_1_0_n_n_0_1_1128 x0 (val_main_v22 (F := Ideal) x10) y
          * Ideal.ofBits .f32 0x3F800000#32
        + Host.gather gather_S100000x128_S50000x1_S50000x128_1_0_n_n_0_1_1128 (val_main_v13 (F := Ideal) x0 x9)
            (val_main_v22 (F := Ideal) x10) y := by
  unfold val_main_v23 Host.gather
  exact h_apply x0 x9 _

/-- An entry of the first perceptron's output over all rows is the perceptron's row function on that row of h,
    with the weights and biases read by their coordinates. -/
theorem full_apply (x0 : (⟨S100000x128, .f32⟩ : BufTy).Contents (Elt Ideal))
    (x1 : (⟨S128x512, .f32⟩ : BufTy).Contents (Elt Ideal)) (x2 : (⟨S512, .f32⟩ : BufTy).Contents (Elt Ideal))
    (x3 : (⟨S512x128, .f32⟩ : BufTy).Contents (Elt Ideal)) (x4 : (⟨S128, .f32⟩ : BufTy).Contents (Elt Ideal))
    (x9 : (⟨S2x1600000, .i32⟩ : BufTy).Contents (Elt Ideal)) (r : Fin 100000) (j : Fin 128) :
    val_main_v41 (F := Ideal) x0 x1 x2 x3 x4 x9 (ix2 r j)
      = Cert.Gin.mlpRow (fun d => val_main_v16 (F := Ideal) x0 x9 (ix2 r d)) (fun d k => x1 (ix2 d k))
          (fun k => x2 (ix1 k)) (fun k j => x3 (ix2 k j)) (fun j => x4 (ix1 j)) j := by
  unfold Cert.Gin.mlpRow
  rw [val_main_v41_apply, val_main_v38_apply, val_main_v40_apply, val_main_v39_apply]
  -- the second bias is read at column j
  have eb : idx_main_v39 (idx_main_v40 (ix2 r j)) = ix1 j :=
    funext fun a => Fin.ext (by match a with | ⟨0, _⟩ => rfl)
  rw [eb]
  congr 1
  refine Finset.sum_congr rfl fun k _ => ?_
  -- the outer product reads the hidden row r at k and the second weight at (k, j)
  have el : lidx_main_v38 (ix2 r j) k = ix2 r k :=
    funext fun a => Fin.ext (by match a with | ⟨0, _⟩ => rfl | ⟨1, _⟩ => rfl)
  have er : ridx_main_v38 (ix2 r j) k = ix2 k j :=
    funext fun a => Fin.ext (by match a with | ⟨0, _⟩ => rfl | ⟨1, _⟩ => rfl)
  rw [el, er, val_main_v37_apply, val_main_v36_apply, val_main_v33_apply, val_main_v35_apply, val_main_v34_apply,
    val_main_call1_v0_apply, val_main_call1_cst_apply]
  -- the first bias is read at column k; the inner product reads row r of h at d and the first weight at (d, k)
  have eb1 : idx_main_v34 (idx_main_v35 (ix2 r k)) = ix1 k :=
    funext fun a => Fin.ext (by match a with | ⟨0, _⟩ => rfl)
  have el1 : ∀ d : Fin 128, lidx_main_v33 (ix2 r k) d = ix2 r d := fun d =>
    funext fun a => Fin.ext (by match a with | ⟨0, _⟩ => rfl | ⟨1, _⟩ => rfl)
  have er1 : ∀ d : Fin 128, ridx_main_v33 (ix2 r k) d = ix2 d k := fun d =>
    funext fun a => Fin.ext (by match a with | ⟨0, _⟩ => rfl | ⟨1, _⟩ => rfl)
  have hs : (∑ d : Fin 128, val_main_v16 (F := Ideal) x0 x9 (lidx_main_v33 (ix2 r k) d)
        * x1 (ridx_main_v33 (ix2 r k) d))
      = ∑ d : Fin 128, val_main_v16 (F := Ideal) x0 x9 (ix2 r d) * x1 (ix2 d k) :=
    Finset.sum_congr rfl fun d _ => by rw [el1 d, er1 d]
  rw [eb1, hs]

/-- An entry of the second perceptron's output over the listed nodes is the perceptron's row function on that
    gathered row of h, with the weights and biases read by their coordinates. -/
theorem id_apply (x0 : (⟨S100000x128, .f32⟩ : BufTy).Contents (Elt Ideal))
    (x5 : (⟨S128x512, .f32⟩ : BufTy).Contents (Elt Ideal)) (x6 : (⟨S512, .f32⟩ : BufTy).Contents (Elt Ideal))
    (x7 : (⟨S512x128, .f32⟩ : BufTy).Contents (Elt Ideal)) (x8 : (⟨S128, .f32⟩ : BufTy).Contents (Elt Ideal))
    (x9 : (⟨S2x1600000, .i32⟩ : BufTy).Contents (Elt Ideal))
    (x10 : (⟨S50000, .i32⟩ : BufTy).Contents (Elt Ideal)) (r : Fin 50000) (j : Fin 128) :
    val_main_v32 (F := Ideal) x0 x5 x6 x7 x8 x9 x10 (ix2 r j)
      = Cert.Gin.mlpRow (fun d => val_main_v23 (F := Ideal) x0 x9 x10 (ix2 r d)) (fun d k => x5 (ix2 d k))
          (fun k => x6 (ix1 k)) (fun k j => x7 (ix2 k j)) (fun j => x8 (ix1 j)) j := by
  unfold Cert.Gin.mlpRow
  rw [val_main_v32_apply, val_main_v29_apply, val_main_v31_apply, val_main_v30_apply]
  -- the second bias is read at column j
  have eb : idx_main_v30 (idx_main_v31 (ix2 r j)) = ix1 j :=
    funext fun a => Fin.ext (by match a with | ⟨0, _⟩ => rfl)
  rw [eb]
  congr 1
  refine Finset.sum_congr rfl fun k _ => ?_
  -- the outer product reads the hidden row r at k and the second weight at (k, j)
  have el : lidx_main_v29 (ix2 r j) k = ix2 r k :=
    funext fun a => Fin.ext (by match a with | ⟨0, _⟩ => rfl | ⟨1, _⟩ => rfl)
  have er : ridx_main_v29 (ix2 r j) k = ix2 k j :=
    funext fun a => Fin.ext (by match a with | ⟨0, _⟩ => rfl | ⟨1, _⟩ => rfl)
  rw [el, er, val_main_v28_apply, val_main_v27_apply, val_main_v24_apply, val_main_v26_apply, val_main_v25_apply,
    val_main_call0_v0_apply, val_main_call0_cst_apply]
  -- the first bias is read at column k; the inner product reads the gathered row r at d and the first weight at
  -- (d, k)
  have eb1 : idx_main_v25 (idx_main_v26 (ix2 r k)) = ix1 k :=
    funext fun a => Fin.ext (by match a with | ⟨0, _⟩ => rfl)
  have el1 : ∀ d : Fin 128, lidx_main_v24 (ix2 r k) d = ix2 r d := fun d =>
    funext fun a => Fin.ext (by match a with | ⟨0, _⟩ => rfl | ⟨1, _⟩ => rfl)
  have er1 : ∀ d : Fin 128, ridx_main_v24 (ix2 r k) d = ix2 d k := fun d =>
    funext fun a => Fin.ext (by match a with | ⟨0, _⟩ => rfl | ⟨1, _⟩ => rfl)
  have hs : (∑ d : Fin 128, val_main_v23 (F := Ideal) x0 x9 x10 (lidx_main_v24 (ix2 r k) d)
        * x5 (ridx_main_v24 (ix2 r k) d))
      = ∑ d : Fin 128, val_main_v23 (F := Ideal) x0 x9 x10 (ix2 r d) * x5 (ix2 d k) :=
    Finset.sum_congr rfl fun d _ => by rw [el1 d, er1 d]
  rw [eb1, hs]

end Cert.Gin.Ref

end
-- ==== Proof.Host.lean ====
/-
  The host side of the kernel's program, read through the folds. Between the launch and the return the program's
  buffers pass five boundaries; the contents at each boundary are a fold of the host operations and of what the
  two regions leave. Here every array a region reads is traced back to the launch memory: the first region finds
  the node features, the neighbour sums (the reference's own term: a scatter-add of gathered rows along the edge
  list), and the first perceptron's weights and biases; the second region finds the combined rows of the listed
  nodes — the reference's gathered rows of h, because a gather commutes with an entry-by-entry combination — and
  the second perceptron's weights and biases; and the program's result is the scatter-add of the second region's
  array into the first region's array at the listed nodes.
-/
import proofs.«176031_j73882027425872_2_alg».proof.Proof.Spec
import proofs.«176031_j73882027425872_2_alg».proof.Proof.Gen.KernelIdeal.Frame
import proofs.«176031_j73882027425872_2_alg».proof.Proof.Gen.ReferenceIdeal.Read
import proofs.«176031_j73882027425872_2_alg».proof.Proof.RefRows
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.Gin.Host

open Cert.KernelIdeal Cert.KernelIdeal.Gen

variable (m : (ℓ : Loc nD τ sig) → Buf (Elt Ideal) ℓ) (ρ : Dev nD → PrngReg)

/-! ## The arrays the first region finds -/

/-- The node features are an argument: no host operation writes them. -/
theorem e_x (c : Dev nD) : V1 m ρ c main_arg0 = m ((c : Thread nD τ).loc main_arg0) := by
  show StableHlo.after hostOps0 (W0 m ρ c) (Proc.devRef .tc main_arg0) = _
  after_results

/-- The neighbour sums the kernel's program computes before its first region are the reference's: the same
    scatter-add of the same gathered rows along the same edge list. -/
theorem e_nh (c : Dev nD) : V1 m ρ c main_v13
    = Cert.ReferenceIdeal.Read.val_main_v13 (F := Ideal) (m ((c : Thread nD τ).loc main_arg0)) (m ((c : Thread nD τ).loc main_arg9)) := by
  show StableHlo.after hostOps0 (W0 m ρ c) (Proc.devRef .tc main_v13) = _
  after_results
  rfl

/-- The first weight matrix, its format changed (the identity on extended reals). -/
theorem e_w1 (c : Dev nD) : V1 m ρ c main_v14 = m ((c : Thread nD τ).loc main_arg1) := by
  show StableHlo.after hostOps0 (W0 m ρ c) (Proc.devRef .tc main_v14) = _
  after_results
  rfl

theorem e_w2 (c : Dev nD) : V1 m ρ c main_v15 = m ((c : Thread nD τ).loc main_arg3) := by
  show StableHlo.after hostOps0 (W0 m ρ c) (Proc.devRef .tc main_v15) = _
  after_results
  rfl

/-- The first bias as a one-row array. -/
theorem e_b1 (c : Dev nD) : V1 m ρ c main_v18 = shapeCast S1x512 (m ((c : Thread nD τ).loc main_arg2)) shapeCasts_S512_S1x512 := by
  show StableHlo.after hostOps0 (W0 m ρ c) (Proc.devRef .tc main_v18) = _
  after_results
  rfl

theorem e_b2 (c : Dev nD) : V1 m ρ c main_v19 = shapeCast S1x128 (m ((c : Thread nD τ).loc main_arg4)) shapeCasts_S128_S1x128 := by
  show StableHlo.after hostOps0 (W0 m ρ c) (Proc.devRef .tc main_v19) = _
  after_results
  rfl

/-! ## The arrays the second region finds -/

/-- An argument that is no array of the first region is, after that region, what it was at launch. -/
theorem w2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)
theorem w2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)
theorem w2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results)
theorem w2_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results)

/-- The first region only reads the node features and the neighbour sums: after it they are as it found them. -/
theorem w2_x (c : Dev nD) : W2 m ρ c (Proc.devRef .tc main_arg0) = m ((c : Thread nD τ).loc main_arg0) :=
  (W2_arr m ρ c 0).trans (((dat0 (V1 m ρ) c).arrAt_in 0 rfl _).trans ((A_eq0 (V1 m ρ) c 0).trans (e_x m ρ c)))
theorem w2_nh (c : Dev nD) : W2 m ρ c (Proc.devRef .tc main_v13)
    = Cert.ReferenceIdeal.Read.val_main_v13 (F := Ideal) (m ((c : Thread nD τ).loc main_arg0)) (m ((c : Thread nD τ).loc main_arg9)) :=
  (W2_arr m ρ c 1).trans (((dat0 (V1 m ρ) c).arrAt_in 1 rfl _).trans ((A_eq0 (V1 m ρ) c 1).trans (e_nh m ρ c)))

/-- The second region's weight matrices were converted before the first region and are untouched by it. -/
theorem f_w1 (c : Dev nD) : V3 m ρ c main_v16 = m ((c : Thread nD τ).loc main_arg5) := by
  show StableHlo.after hostOps1 (W2 m ρ c) (Proc.devRef .tc main_v16) = _
  after_results
  rw [W2_of_ne m ρ c main_v16 (by decide)]
  show StableHlo.after hostOps0 (W0 m ρ c) (Proc.devRef .tc main_v16) = _
  after_results
  rfl
theorem f_w2 (c : Dev nD) : V3 m ρ c main_v17 = m ((c : Thread nD τ).loc main_arg7) := by
  show StableHlo.after hostOps1 (W2 m ρ c) (Proc.devRef .tc main_v17) = _
  after_results
  rw [W2_of_ne m ρ c main_v17 (by decide)]
  show StableHlo.after hostOps0 (W0 m ρ c) (Proc.devRef .tc main_v17) = _
  after_results
  rfl

/-- The second region's biases as one-row arrays. -/
theorem f_b1 (c : Dev nD) : V3 m ρ c main_v39 = shapeCast S1x512 (m ((c : Thread nD τ).loc main_arg6)) shapeCasts_S512_S1x512 := by
  show StableHlo.after hostOps1 (W2 m ρ c) (Proc.devRef .tc main_v39) = _
  after_results
  rw [w2_arg6 m ρ c]
  rfl
theorem f_b2 (c : Dev nD) : V3 m ρ c main_v40 = shapeCast S1x128 (m ((c : Thread nD τ).loc main_arg8)) shapeCasts_S128_S1x128 := by
  show StableHlo.after hostOps1 (W2 m ρ c) (Proc.devRef .tc main_v40) = _
  after_results
  rw [w2_arg8 m ρ c]
  rfl

/-- A format change of (g₁ · 1 + g₂) read at an index: the format change is the identity and the splat of the
    literal one reads that literal. -/
theorem comb_apply (g1 g2 : FVec Ideal S50000x128 .f32) (y : S50000x128.Idx) :
    truncf .bf16 (addf (mulf g1 (broadcastInDim S50000x128 ![] bcast_S_S50000x128 (constant S_ .f32 0x3F800000#32))) g2)
        bitsLt_bf16_f32 y
      = g1 y * Ideal.ofBits .f32 0x3F800000#32 + g2 y := rfl

/-- The second region's input: the gathered feature rows times one plus the gathered neighbour sums, with the
    same list of nodes wrapped the same way — the reference's gathered rows of h, since a gather reads its operand
    at one index that depends on the list and the position only. -/
theorem f_h (c : Dev nD) : V3 m ρ c main_v38
    = Cert.ReferenceIdeal.Read.val_main_v23 (F := Ideal) (m ((c : Thread nD τ).loc main_arg0)) (m ((c : Thread nD τ).loc main_arg9))
        (m ((c : Thread nD τ).loc main_arg10)) := by
  show StableHlo.after hostOps1 (W2 m ρ c) (Proc.devRef .tc main_v38) = _
  after_results_simp
  rw [w2_x m ρ c, w2_nh m ρ c, w2_arg10 m ρ c]
  funext y
  rw [Cert.Gin.Ref.gather_apply]
  refine (comb_apply _ _ y).trans ?_
  rfl

/-! ## The result -/

/-- After the second region its result array holds what the region's write-backs leave. -/
theorem w4_out (c : Dev nD) : W4 m ρ c (Proc.devRef .tc main_v41) = (dat1 (V3 m ρ) c).arrAt 5 cfg1.N := W4_arr m ρ c 5

/-- The first region's result array is untouched by what follows it. -/
theorem w3_full (c : Dev nD) : W3 m ρ c (Proc.devRef .tc main_v20) = W2 m ρ c (Proc.devRef .tc main_v20) := by
  show StableHlo.after hostOps1 (W2 m ρ c) (Proc.devRef .tc main_v20) = _
  after_results_simp
theorem w4_full (c : Dev nD) : W4 m ρ c (Proc.devRef .tc main_v20) = (dat0 (V1 m ρ) c).arrAt 6 cfg0.N :=
  (W4_of_ne m ρ c main_v20 (by decide)).trans ((w3_full m ρ c).trans (W2_arr m ρ c 6))

theorem w3_arg10 (c : Dev nD) : W3 m ρ c (Proc.devRef .tc main_arg10) = W2 m ρ c (Proc.devRef .tc main_arg10) := by
  show StableHlo.after hostOps1 (W2 m ρ c) (Proc.devRef .tc main_arg10) = _
  after_results_simp
theorem w4_arg10 (c : Dev nD) : W4 m ρ c (Proc.devRef .tc main_arg10) = m ((c : Thread nD τ).loc main_arg10) :=
  (W4_of_ne m ρ c main_arg10 (by decide)).trans ((w3_arg10 m ρ c).trans (w2_arg10 m ρ c))

/-- The program's result: the second region's rows scatter-added into the first region's array at the listed
    nodes (wrapped as the reference wraps them). -/
theorem result_eq (c : Dev nD) : (W5 m ρ c (Proc.devRef .tc main_v48) : S100000x128.Idx → Ideal .f32)
    = Host.scatterAdd (F := Ideal) (φ := .f32) Cert.ReferenceIdeal.scatter_S100000x128_S50000x1_S50000x128_1_0_0_1
        ((dat0 (V1 m ρ) c).arrAt 6 cfg0.N : S100000x128.Idx → Ideal .f32)
        (Cert.ReferenceIdeal.Read.val_main_v47 (F := Ideal) (m ((c : Thread nD τ).loc main_arg10)))
        ((dat1 (V3 m ρ) c).arrAt 5 cfg1.N : S50000x128.Idx → Ideal .f32) := by
  show StableHlo.after hostOps2 (W4 m ρ c) (Proc.devRef .tc main_v48) = _
  after_results_simp
  rw [w4_out m ρ c, w4_full m ρ c, w4_arg10 m ρ c]
  rfl

end Cert.Gin.Host

end
-- ==== Proof.Value.lean ====
/-
  The kernel's program and the reference compute one array. After its two regions and the closing scatter-add
  the kernel's program holds

      scatter-add ( P₁ (x·1 + nh) , ids , P₂ ((x·1 + nh)[ids]) ),

  where nh is the sum of the neighbours' rows, P₁ and P₂ are the two perceptrons applied row by row, and ids the
  listed nodes: each region's array is its perceptron of every row of its input (Region0.lean, Region1.lean), the
  inputs and parameters are the launch arrays traced through the host operations (Host.lean), and row by row the
  perceptron a region computes in 2000-row blocks is the one the reference computes on whole arrays
  (RefRows.lean), the bias read from a one-row array being the bias vector's entry.
-/
import proofs.«176031_j73882027425872_2_alg».proof.Proof.Spec
import proofs.«176031_j73882027425872_2_alg».proof.Proof.Region0
import proofs.«176031_j73882027425872_2_alg».proof.Proof.Region1
import proofs.«176031_j73882027425872_2_alg».proof.Proof.Host
import proofs.«176031_j73882027425872_2_alg».proof.Proof.RefRows
import Idealize.ShloMosaic.Lib.ValueLayout

set_option maxRecDepth 16384

noncomputable section

open Idealize.ShloMosaic Idealize.ShloMosaic.TcCoe Idealize.SL.Sem Idealize.ShloMosaic.ValueIdx

namespace Cert.Gin.Value

open Cert.KernelIdeal Cert.KernelIdeal.Gen Cert.ReferenceIdeal.Read

/-- The first region's function of the launch arrays is the reference's perceptron over all rows of h. -/
theorem full_eq (x0 : (⟨Cert.ReferenceIdeal.S100000x128, .f32⟩ : BufTy).Contents (Elt Ideal))
    (x1 : (⟨Cert.ReferenceIdeal.S128x512, .f32⟩ : BufTy).Contents (Elt Ideal))
    (x2 : (⟨Cert.ReferenceIdeal.S512, .f32⟩ : BufTy).Contents (Elt Ideal))
    (x3 : (⟨Cert.ReferenceIdeal.S512x128, .f32⟩ : BufTy).Contents (Elt Ideal))
    (x4 : (⟨Cert.ReferenceIdeal.S128, .f32⟩ : BufTy).Contents (Elt Ideal))
    (x9 : (⟨Cert.ReferenceIdeal.S2x1600000, .i32⟩ : BufTy).Contents (Elt Ideal)) :
    Region0.Gof x0 (val_main_v13 (F := Ideal) x0 x9) x1 (shapeCast S1x512 x2 shapeCasts_S512_S1x512) x3
        (shapeCast S1x128 x4 shapeCasts_S128_S1x128)
      = val_main_v41 (F := Ideal) x0 x1 x2 x3 x4 x9 := by
  funext i
  obtain ⟨r, j, rfl⟩ : ∃ (r : Fin 100000) (j : Fin 128), i = ix2 r j := ⟨i 0, i 1, eq_ix2 i⟩
  rw [Ref.full_apply]
  unfold Region0.Gof
  rw [rowsMlp_apply]
  exact mlpRow_congr j (fun d => (Ref.h_apply x0 x9 _).symm) (fun _ _ => rfl)
    (fun k => shapeCast_a_1a_apply x2 shapeCasts_S512_S1x512 0 k) (fun _ _ => rfl)
    (fun j => shapeCast_a_1a_apply x4 shapeCasts_S128_S1x128 0 j)

/-- The second region's function of the gathered rows is the reference's perceptron over the listed nodes. -/
theorem id_eq (x0 : (⟨Cert.ReferenceIdeal.S100000x128, .f32⟩ : BufTy).Contents (Elt Ideal))
    (x5 : (⟨Cert.ReferenceIdeal.S128x512, .f32⟩ : BufTy).Contents (Elt Ideal))
    (x6 : (⟨Cert.ReferenceIdeal.S512, .f32⟩ : BufTy).Contents (Elt Ideal))
    (x7 : (⟨Cert.ReferenceIdeal.S512x128, .f32⟩ : BufTy).Contents (Elt Ideal))
    (x8 : (⟨Cert.ReferenceIdeal.S128, .f32⟩ : BufTy).Contents (Elt Ideal))
    (x9 : (⟨Cert.ReferenceIdeal.S2x1600000, .i32⟩ : BufTy).Contents (Elt Ideal))
    (x10 : (⟨Cert.ReferenceIdeal.S50000, .i32⟩ : BufTy).Contents (Elt Ideal)) :
    Region1.Gof (val_main_v23 (F := Ideal) x0 x9 x10) x5 (shapeCast S1x512 x6 shapeCasts_S512_S1x512) x7
        (shapeCast S1x128 x8 shapeCasts_S128_S1x128)
      = val_main_v32 (F := Ideal) x0 x5 x6 x7 x8 x9 x10 := by
  funext i
  obtain ⟨r, j, rfl⟩ : ∃ (r : Fin 50000) (j : Fin 128), i = ix2 r j := ⟨i 0, i 1, eq_ix2 i⟩
  rw [Ref.id_apply]
  unfold Region1.Gof
  rw [rowsMlp_apply]
  exact mlpRow_congr j (fun _ => rfl) (fun _ _ => rfl)
    (fun k => shapeCast_a_1a_apply x6 shapeCasts_S512_S1x512 0 k) (fun _ _ => rfl)
    (fun j => shapeCast_a_1a_apply x8 shapeCasts_S128_S1x128 0 j)

variable (m : (ℓ : Loc nD τ sig) → Buf (Elt Ideal) ℓ) (ρ : Dev nD → PrngReg)

/-- What the kernel's program leaves in its result buffer is the reference's result term of the launch arrays. -/
theorem kernel_value (c : Dev nD) : (W5 m ρ c (Proc.devRef .tc main_v48) : S100000x128.Idx → Ideal .f32)
    = val_main_v48 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  rw [Host.result_eq m ρ c, Region0.final (V1 m ρ) c, Region1.final (V3 m ρ) c]
  unfold Region0.G Region1.G
  rw [Host.e_x m ρ c, Host.e_nh m ρ c, Host.e_w1 m ρ c, Host.e_b1 m ρ c, Host.e_w2 m ρ c, Host.e_b2 m ρ c,
    Host.f_h m ρ c, Host.f_w1 m ρ c, Host.f_b1 m ρ c, Host.f_w2 m ρ c, Host.f_b2 m ρ c]
  rw [full_eq, id_eq]
  rfl

end Cert.Gin.Value

end
-- ==== Proof.lean ====
/-
  The certificate of a graph-isomorphism layer. The kernel's program and the reference both compute

      out = P₁ (h) scatter-added with P₂ (h[ids]) at the rows ids,   h = x · 1 + (sum of the neighbours' rows of x),

  with P₁, P₂ two-layer perceptrons (product, bias, rectifier, product, bias) applied row by row. The reference
  does it on whole arrays; the kernel's program computes P₁ and P₂ in two regions over blocks of 2000 rows, with
  the combination x · 1 + nh folded into the first region's body, the rows h[ids] formed on the host as
  x[ids] · 1 + nh[ids], and the weights passed through a change of float format. Over the extended reals a change
  of format is the identity, a matrix product into a zero accumulator is the plain sum, a row of either
  perceptron's output depends on the same row of its input only, and a gather of an entry-by-entry combination is
  the combination of the gathers; so the two results are one array (Value.lean). No law of arithmetic that fails
  at an infinity is used: the inputs' finiteness is not needed.

  The three frames: the kernel's programs by their generated frame proofs; the reference by its generated run.
  The idealization rewrote nothing, so it preserves the program trivially.
-/
import proofs.«176031_j73882027425872_2_alg».proof.Defs
import proofs.«176031_j73882027425872_2_alg».proof.Proof.Gen.Kernel
import proofs.«176031_j73882027425872_2_alg».proof.Proof.Gen.Kernel.Skeleton
import proofs.«176031_j73882027425872_2_alg».proof.Proof.Gen.Kernel.Launch
import proofs.«176031_j73882027425872_2_alg».proof.Proof.Gen.Kernel.Points
import proofs.«176031_j73882027425872_2_alg».proof.Proof.Gen.Kernel.Frame
import proofs.«176031_j73882027425872_2_alg».proof.Proof.Gen.KernelIdeal
import proofs.«176031_j73882027425872_2_alg».proof.Proof.Gen.KernelIdeal.Skeleton
import proofs.«176031_j73882027425872_2_alg».proof.Proof.Gen.KernelIdeal.Launch
import proofs.«176031_j73882027425872_2_alg».proof.Proof.Gen.KernelIdeal.Points
import proofs.«176031_j73882027425872_2_alg».proof.Proof.Gen.KernelIdeal.Frame
import proofs.«176031_j73882027425872_2_alg».proof.Proof.Gen.ReferenceIdeal
import proofs.«176031_j73882027425872_2_alg».proof.Proof.Gen.Pre_finite_inputs
import proofs.«176031_j73882027425872_2_alg».proof.Proof.Gen.ReferenceIdeal.Run
import proofs.«176031_j73882027425872_2_alg».proof.Proof.Gen.ReferenceIdeal.Read
import proofs.«176031_j73882027425872_2_alg».proof.Proof.Run
import proofs.«176031_j73882027425872_2_alg».proof.Proof.Value
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the reference's result term of the
    kernel's launch arrays. -/
theorem algebraic : Cert.algebraic_KernelIdeal_ReferenceIdeal := by
  intro m ρ m' ρ' _ hagree
  refine ⟨fun c => Cert.KernelIdeal.Gen.W5 m ρ c (Proc.devRef .tc Cert.KernelIdeal.main_v48),
    Cert.Gin.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v48_eq, a0, a1, a2, a3, a4, a5, a6, a7, a8, a9, a10]
  exact (Cert.Gin.Value.kernel_value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
